-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S65536x256 : Shape := ⟨2, ![65536, 256]⟩
abbrev S512x128 : Shape := ⟨2, ![512, 128]⟩
abbrev S8192x256 : Shape := ⟨2, ![8192, 256]⟩
abbrev S64x128 : Shape := ⟨2, ![64, 128]⟩
abbrev S8192 : Shape := ⟨1, ![8192]⟩
abbrev S65536x1 : Shape := ⟨2, ![65536, 1]⟩

abbrev nBuf : Space → Nat
  | .hbm => 4
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S512x128, .f32⟩
  | .hbm, ⟨3, _⟩ => ⟨S65536x1, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S64x128, .f32⟩
  | .local _ .vmem, ⟨5, _⟩ => ⟨S64x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S64x128 : S8192.ShapeCasts S64x128
  inb_S64x128_S64x128_0_0 : ∀ a, (![0, 0] : Fin 2 → Nat) a + S64x128.size a ≤ S64x128.size a
  h_S64x128 : 0 < S64x128.numel
  shapeCasts_S512x128_S65536x1 : S512x128.ShapeCasts S65536x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S65536x256.size a
  hwx0_1 : ∀ i : grid0.Coords, EltTy.bits .f32 = 32 ∨ (Rect.block (s := S65536x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S512x128.size a
  hwx0_2 : ∀ i : grid0.Coords, EltTy.bits .f32 = 32 ∨ (Rect.block (s := S512x128) S64x128.size (cc0_transform_2 i) (hinb0_2 i)).WholeWords (EltTy.packing .f32)

variable [Facts₀]

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S_ : Shape := ⟨0, ![]⟩
abbrev S65536 : Shape := ⟨1, ![65536]⟩
abbrev S65536x1 : Shape := ⟨2, ![65536, 1]⟩

abbrev nBuf : Space → Nat
  | .hbm => 7
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)

variable [Facts₀]

class Facts : Prop extends Facts₀ where

variable [Facts]
-- ==== Proof.RowDot.lean ====
/-
  The function both programs compute, stated once over extended reals and literal shapes.

  For two arrays `q`, `d` of 65536 rows and 256 columns, row `r` of the result is minus the dot product of the
  two rows, `-(∑ k, q[r,k] · d[r,k])`.  The reference returns it as a column [65536, 1]; the kernel writes it
  folded into 512 rows of 128 lanes (row `r` sits at (r / 128, r % 128)) and the program around it reads that
  array back in row-major order as the column.  No step uses more than: `0 + s = s`, `0 - s = -s`, and that a
  row-major position determines an index — all of which hold at the infinities, so finiteness is never used.
-/
import Idealize.ShloMosaic.PureOps.Ideal.Laws
import Idealize.ShloMosaic.Lib.ValueIdx

noncomputable section

namespace Cert.RowDot

open Idealize.ShloMosaic Idealize.ShloMosaic.ValueIdx

/-- Minus the dot product of row `r` of `q` with row `r` of `d`. -/
def negDot (q d : FVec Ideal ⟨2, ![65536, 256]⟩ .f32) (r : Fin 65536) : EReal :=
  -(∑ k : Fin 256, q (ix2 r k) * d (ix2 r k))

/-- The result as a column: entry (n, 0) is row `n`'s negated dot product. -/
def column (q d : FVec Ideal ⟨2, ![65536, 256]⟩ .f32) : FVec Ideal ⟨2, ![65536, 1]⟩ .f32 :=
  fun i => negDot q d ⟨(i 0).val, (i 0).isLt⟩

/-- The result folded into 512 rows of 128 lanes: entry (g, l) is row `128 g + l`'s negated dot product. -/
def folded (q d : FVec Ideal ⟨2, ![65536, 256]⟩ .f32) : FVec Ideal ⟨2, ![512, 128]⟩ .f32 :=
  fun i => negDot q d ⟨(i 0).val * 128 + (i 1).val, by
    have h0 : (i 0).val < 512 := (i 0).isLt
    have h1 : (i 1).val < 128 := (i 1).isLt
    omega⟩

/-- Two spellings of one row number give one value. -/
theorem negDot_congr (q d : FVec Ideal ⟨2, ![65536, 256]⟩ .f32) {r r' : Fin 65536} (h : r.val = r'.val) :
    negDot q d r = negDot q d r' := congrArg (negDot q d) (Fin.ext h)

/-- Subtracting from zero is negation, on every extended real. -/
theorem zero_sub_eq (s : EReal) : 0 - s = -s := zero_sub s

/-- A sum started from zero, negated. -/
theorem neg_zero_add (s : EReal) : -(0 + s) = -s := by rw [zero_add]

end Cert.RowDot

end
-- ==== Proof.RefRow.lean ====
/-
  The reference's result term is the column of negated row dot products.

  The reference multiplies the two arrays entry by entry, sums each row from zero, views the [65536] vector of sums as a
  [65536, 1] column and negates it.  Read at entry (n, 0) this is `-(0 + ∑ k, q[n,k] · d[n,k])`, and `0 + s = s`.
-/
import proofs.«102841_j26946624815702_2_alg».proof.Proof.Gen.ReferenceIdeal.Read
import proofs.«102841_j26946624815702_2_alg».proof.Proof.RowDot

noncomputable section

namespace Cert.ReferenceIdeal.RefRow

open Cert.ReferenceIdeal Cert.ReferenceIdeal.Read Idealize.ShloMosaic Idealize.ShloMosaic.ValueIdx Cert.RowDot

/-- The composed index of the reference's stages — column entry (n, 0), then row n of the sums, then summand k — is
    entry (n, k) of the arguments. -/
theorem idx_row (i : S65536x1.Idx) (k : Fin 256) :
    idx_main_v1 (idx_main_v2 i) k = ix2 (⟨(i 0).val, (i 0).isLt⟩ : Fin 65536) k :=
  funext fun a => Fin.ext (by match a with | ⟨0, _⟩ => rfl | ⟨1, _⟩ => rfl)

/-- The reference's last stage, as a function of the two argument arrays, is `column`. -/
theorem ref_eq_column (x0 x1 : (⟨S65536x256, .f32⟩ : BufTy).Contents (Elt Ideal)) :
    val_main_v3 (F := Ideal) x0 x1 = column x0 x1 := by
  funext i
  rw [val_main_v3_apply, val_main_v2_apply, val_main_v1_apply]
  simp only [val_main_v0_apply, val_main_cst_apply, idx_row, Ideal.hostNegf_def, Ideal.negf_def, Ideal.mulf_def,
    Ideal.ofBits_def, Ideal.ofBits_zero_f32]
  exact neg_zero_add _

end Cert.ReferenceIdeal.RefRow

end
-- ==== Proof.BodyRow.lean ====
/-
  What the kernel body computes from one pair of blocks, read at an index.

  The body multiplies its two [8192, 256] blocks entry by entry, sums each row over the 256 lanes, subtracts the
  sums from zero and lays the 8192 results out as 64 rows of 128 lanes in row-major order.  So entry (p, l) of what
  it stores is `0 - ∑ k, x0[128 p + l, k] · x1[128 p + l, k]`, and `0 - s = -s`.
-/
import proofs.«102841_j26946624815702_2_alg».proof.Proof.Gen.KernelIdeal.Skeleton
import proofs.«102841_j26946624815702_2_alg».proof.Proof.RowDot
import Idealize.ShloMosaic.Lib.Pipeline.Value

noncomputable section

namespace Cert.KernelIdeal.BodyRow

open Cert.KernelIdeal Cert.KernelIdeal.Gen Idealize.ShloMosaic Idealize.ShloMosaic.ValueIdx Cert.RowDot

/-- The lane sum of an [8192, 256] vector, read at row `r`: the sum over the 256 lanes of that row. -/
theorem rowSum_apply (v : FVec Ideal S8192x256 .f32) (h : S8192x256.Reduces [1] S8192) (hφ : FKind.Formats .f32)
    (hacc : (0x00000000#32 : BitVec 32) = FKind.add.neutral .f32 hφ) (r : Fin 8192) :
    multiReduction (F := Ideal) .add [1] S8192 v 0x00000000#32 h hφ hacc (ix1 r) = ∑ k : Fin 256, v (ix2 r k) := by
  refine (Ideal.multiReduction_add_single v 0x00000000#32 h hφ hacc (ix1 r)).trans ?_
  refine Finset.sum_congr rfl fun k _ => congrArg v ?_
  exact funext fun a => Fin.ext (by match a with | ⟨0, _⟩ => rfl | ⟨1, _⟩ => rfl)

/-- Entry (p, l) of the stored block: minus the dot product of row `128 p + l` of the two loaded blocks. -/
theorem pay_apply (x0 x1 : FVec Ideal S8192x256 .f32) (p : Fin 64) (l : Fin 128) (r : Fin 8192)
    (hr : r.val = p.val * 128 + l.val) :
    k0_pay1 (F := Ideal) x0 x1 (ix2 p l) = -(∑ k : Fin 256, x0 (ix2 r k) * x1 (ix2 r k)) := by
  unfold k0_pay1
  dsimp only
  refine (shapeCast_apply _ _ (ix2 p l) (ix1 r) ?_).trans ?_
  · rw [Shape.rowMajor_val_one, Shape.rowMajor_val_two]
    exact hr
  · rw [subf_apply, broadcast_apply]
    refine (congrArg (fun s => Scalar.ofBits (F := Ideal) .f32 0x00000000#32 - s) (rowSum_apply _ _ _ _ r)).trans ?_
    show Ideal.ofBits .f32 0x00000000#32 - _ = _
    rw [Ideal.ofBits_zero_f32]
    exact zero_sub_eq _

end Cert.KernelIdeal.BodyRow

end
-- ==== Proof.Folded.lean ====
/-
  The kernel's output array after the run: the negated row dot products, folded into 512 rows of 128 lanes.

  The grid has 8 points.  Point `t` reads rows `8192 t … 8192 t + 8191` of both arguments and writes rows
  `64 t … 64 t + 63` of the [512, 128] output.  Entry (p, l) of what it writes is the negated dot product of row
  `128 p + l` of its blocks, that is of row `8192 t + 128 p + l = 128 (64 t + p) + l` of the arguments: the entry
  (64 t + p, l) of `folded`.  The 8 blocks of 64 rows tile the 512 rows, so the whole array ends at `folded`.
-/
import proofs.«102841_j26946624815702_2_alg».proof.Proof.Gen.KernelIdeal.Frame
import proofs.«102841_j26946624815702_2_alg».proof.Proof.BodyRow
import Idealize.ShloMosaic.Lib.Pipeline.Value

set_option maxRecDepth 16384

noncomputable section

namespace Cert.KernelIdeal.Folded

open Cert.KernelIdeal Cert.KernelIdeal.Gen Idealize.ShloMosaic Idealize.ShloMosaic.TcCoe Idealize.SL.Sem
open Idealize.ShloMosaic.ValueIdx Cert.RowDot
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three index maps, decided over the 8 points: every window is at block row `t`, block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 7
    ∧ win0_2.index t (1 : Fin 2) = 0 :=
  (by decide +kernel : ∀ t : Fin grid0.N, _)

/-- Every block row of the output is some point's. -/
theorem idx_onto : ∀ (q0 : Fin 8), ∃ t : Fin cfg0.N, win0_2.index t = ![q0.val, 0] :=
  (by decide +kernel : ∀ (q0 : Fin 8), ∃ t : Fin grid0.N, win0_2.index t = ![q0.val, 0])

/-- One entry of a stored block against `folded`, over plain arrays: if the loaded blocks are rows
    `8192 b …` of `A0`, `A1`, then entry `y` of the stored block is entry (64 b + y₀, y₁) of `folded A0 A1`. -/
theorem block_entry (A0 A1 : FVec Ideal S65536x256 .f32) (x0 x1 : FVec Ideal S8192x256 .f32) (b : Nat) (hb : b ≤ 7)
    (h0 : ∀ (y : S8192x256.Idx) (i : S65536x256.Idx), (i 0).val = b * 8192 + (y 0).val → (i 1).val = (y 1).val → x0 y = A0 i)
    (h1 : ∀ (y : S8192x256.Idx) (i : S65536x256.Idx), (i 0).val = b * 8192 + (y 0).val → (i 1).val = (y 1).val → x1 y = A1 i)
    (y : S64x128.Idx) (i : S512x128.Idx) (hi0 : (i 0).val = b * 64 + (y 0).val) (hi1 : (i 1).val = (y 1).val) :
    k0_pay1 (F := Ideal) x0 x1 y = folded A0 A1 i := by
  obtain ⟨p, l, rfl⟩ : ∃ (p : Fin 64) (l : Fin 128), y = ix2 p l := ⟨y 0, y 1, eq_ix2 y⟩
  have hp : p.val < 64 := p.isLt
  have hl : l.val < 128 := l.isLt
  have hi0' : (i 0).val = b * 64 + p.val := hi0
  have hi1' : (i 1).val = l.val := hi1
  rw [BodyRow.pay_apply x0 x1 p l ⟨p.val * 128 + l.val, by omega⟩ rfl]
  unfold folded negDot
  refine congrArg Neg.neg (Finset.sum_congr rfl fun k _ => ?_)
  rw [h0 (ix2 (⟨p.val * 128 + l.val, by omega⟩ : Fin 8192) k)
        (ix2 (⟨(i 0).val * 128 + (i 1).val, by omega⟩ : Fin 65536) k)
        (by show (i 0).val * 128 + (i 1).val = b * 8192 + (p.val * 128 + l.val); omega) rfl,
      h1 (ix2 (⟨p.val * 128 + l.val, by omega⟩ : Fin 8192) k)
        (ix2 (⟨(i 0).val * 128 + (i 1).val, by omega⟩ : Fin 65536) k)
        (by show (i 0).val * 128 + (i 1).val = b * 8192 + (p.val * 128 + l.val); omega) rfl]

/-- Input window 0's block at point `t`, read at an entry, is the first argument at the entry the block's rectangle says. -/
theorem iblk0_apply (c : Dev nD) (t : Fin cfg0.N) (y : S8192x256.Idx) (i : S65536x256.Idx)
    (h0 : (i 0).val = win0_0.index t (0 : Fin 2) * 8192 + (y 0).val)
    (h1 : (i 1).val = win0_0.index t (1 : Fin 2) * 256 + (y 1).val) :
    (iblk m c 0 t : Vec Ideal S8192x256 .f32) y = (V m c main_arg0 : S65536x256.Idx → Elt Ideal .f32) i := by
  unfold iblk
  rw [View.read_apply]
  show V m c main_arg0 _ = V m c main_arg0 _
  refine congrArg (V m c main_arg0) ?_
  funext a
  apply Fin.ext
  match a with
  | ⟨0, _⟩ => show win0_0.index t (0 : Fin 2) * 8192 + 1 * (y 0).val = (i 0).val; omega
  | ⟨1, _⟩ => show win0_0.index t (1 : Fin 2) * 256 + 1 * (y 1).val = (i 1).val; omega

/-- The same for input window 1 and the second argument. -/
theorem iblk1_apply (c : Dev nD) (t : Fin cfg0.N) (y : S8192x256.Idx) (i : S65536x256.Idx)
    (h0 : (i 0).val = win0_1.index t (0 : Fin 2) * 8192 + (y 0).val)
    (h1 : (i 1).val = win0_1.index t (1 : Fin 2) * 256 + (y 1).val) :
    (iblk m c 1 t : Vec Ideal S8192x256 .f32) y = (V m c main_arg1 : S65536x256.Idx → Elt Ideal .f32) i := by
  unfold iblk
  rw [View.read_apply]
  show V m c main_arg1 _ = V m c main_arg1 _
  refine congrArg (V m c main_arg1) ?_
  funext a
  apply Fin.ext
  match a with
  | ⟨0, _⟩ => show win0_1.index t (0 : Fin 2) * 8192 + 1 * (y 0).val = (i 0).val; omega
  | ⟨1, _⟩ => show win0_1.index t (1 : Fin 2) * 256 + 1 * (y 1).val = (i 1).val; omega

/-- What point `t` writes back is block `t` of `folded` of the argument arrays as the region finds them. -/
theorem flushed_eq (c : Dev nD) (t : Fin cfg0.N) :
    (dats m 0 c).flushed 2 t
      = ((cfg0.win 2).blk t).view.read (Elt Ideal) (folded (V m c main_arg0) (V m c main_arg1)) := by
  show (cfg0.win 2).cut (grid0.coords t) ((dats m 0 c).after 2 t) = _
  rw [after0_2]
  unfold out0_2
  rw [View.canon_unit_zero hz]
  simp only [View.ld_unit_zero (S := S8192x256) hz]
  obtain ⟨e0, e1, e2, e3, e4, e5⟩ := idx_facts t
  funext j
  refine block_entry (V m c main_arg0) (V m c main_arg1) (iblk m c 0 t) (iblk m c 1 t)
    (win0_2.index t (0 : Fin 2)) e4
    (fun y i hi0 hi1 => iblk0_apply m c t y i (by rw [e0]; exact hi0) (by rw [e1]; omega))
    (fun y i hi0 hi1 => iblk1_apply m c t y i (by rw [e2]; exact hi0) (by rw [e3]; omega))
    ((win0 2).xinj (grid0.coords t) j) (((cfg0.win 2).blk t).view.emb j) ?_ ?_
  · show win0_2.index t (0 : Fin 2) * 64 + 1 * (j 0).val = win0_2.index t (0 : Fin 2) * 64 + (j 0).val
    omega
  · show win0_2.index t (1 : Fin 2) * 128 + 1 * (j 1).val = (j 1).val
    omega

/-- An index of the output array is in point `t`'s block iff each coordinate is in the block's range on its axis. -/
theorem mem_blk (t : Fin cfg0.N) (i : S512x128.Idx) :
    i ∈ ((cfg0.win 2).blk t).view.set ↔ ∀ a : Fin 2, win0_2.index t a * S64x128.size a ≤ (i a).val
      ∧ (i a).val < win0_2.index t a * S64x128.size a + S64x128.size a := by
  show i ∈ ((View.whole main_v0).slice (win0_2.rect t)).set ↔ _
  rw [View.set_slice_whole, Rect.mem_set_unit]
  exact Iff.rfl

/-- Every index of the output array is in some point's block: row `g` is in the block of point `g / 64`. -/
theorem cover (i : S512x128.Idx) :
    ∃ t : Fin cfg0.N, (cfg0.win 2).flush t = true ∧ i ∈ ((cfg0.win 2).blk t).view.set := by
  have hi0 : (i 0).val < 512 := (i 0).isLt
  have hi1 : (i 1).val < 128 := (i 1).isLt
  obtain ⟨t, ht⟩ := idx_onto ⟨(i 0).val / 64, by omega⟩
  have q0 : win0_2.index t (0 : Fin 2) = (i 0).val / 64 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 128 ≤ (i 1).val ∧ (i 1).val < win0_2.index t (1 : Fin 2) * 128 + 128
    omega

/-- The output array after the run is `folded` of the two arguments as launched. -/
theorem final (c : Dev nD) :
    (dats m 0 c).arrAt 2 cfg0.N
      = folded (m ((c : Thread nD τ).loc main_arg0)) (m ((c : Thread nD τ).loc main_arg1)) :=
  ((dats m 0 c).arrAt_eq_of_cover 2 (folded (V m c main_arg0) (V m c main_arg1))
    (fun t _ => flushed_eq m c t) cover).trans (by rw [V_main_arg0, V_main_arg1])

end Cert.KernelIdeal.Folded

end
-- ==== Proof.Tail.lean ====
/-
  The kernel program's result: the folded array read back in row-major order is the column.

  After the region the program reshapes the [512, 128] output to [65536, 1].  A reshape keeps row-major positions:
  entry (n, 0) of the column is entry (n / 128, n % 128) of the folded array, which holds the negated dot product of row
  `128 (n / 128) + n % 128 = n`.  The run of the whole program then ends with the result buffer at `column` of the two
  arguments, and the arguments as they were.
-/
import proofs.«102841_j26946624815702_2_alg».proof.Proof.Folded
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx Cert.RowDot Idealize.ShloMosaic.StableHlo
open Idealize.ShloMosaic.Pipeline (Dat)

variable (m : (ℓ : Loc nD τ sig) → Buf (Elt Ideal) ℓ) (ρ : Dev nD → PrngReg)

/-- The folded array, reshaped to a column, is `column`: entry (n, 0) reads entry (n / 128, n % 128). -/
theorem reshape_folded (A0 A1 : FVec Ideal S65536x256 .f32) (h : S512x128.ShapeCasts S65536x1) :
    shapeCast S65536x1 (folded A0 A1) h = column A0 A1 := by
  funext i
  have hi0 : (i 0).val < 65536 := (i 0).isLt
  have hi1 : (i 1).val < 1 := (i 1).isLt
  refine (shapeCast_apply (folded A0 A1) h i
    (ix2 (⟨(i 0).val / 128, by omega⟩ : Fin 512) (⟨(i 0).val % 128, by omega⟩ : Fin 128)) ?_).trans ?_
  · rw [Shape.rowMajor_val_two, Shape.rowMajor_val_two]
    show (i 0).val / 128 * 128 + (i 0).val % 128 = (i 0).val * 1 + (i 1).val
    omega
  · unfold folded column
    refine negDot_congr A0 A1 ?_
    show (i 0).val / 128 * 128 + (i 0).val % 128 = (i 0).val
    omega

/-- The result buffer is written by no window: it bypasses the region and is written by the reshape after it. -/
theorem v1_rest : main_v1 ∈ Pipeline.restRefs sig (cfgs 0).spec :=
  Pipeline.mem_restRefs_of main_v1 rfl (fun w => by fin_cases w <;> decide)

/-- What the line after the region leaves in the result buffer. -/
theorem tail_eq (c : Dev nD) :
    Pipeline.afterTail₀ cfgs (dats m) 0 (V0 m) [hostOps1] c main_v1
      = column (m ((c : Thread nD τ).loc main_arg0)) (m ((c : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = (dats m 0 c).arrAt 2 cfg0.N :=
    Pipeline.withArrays_arr spec0 launch0.win.arr_inj c _ _ 2
  show shapeCast S65536x1 (Pipeline.withArrays (cfgs 0).spec c (V0 m c)
      (fun w => (dats m 0 c).arrAt w (cfgs 0).N) (Proc.devRef .tc main_v0)) shapeCasts_S512x128_S65536x1 = _
  rw [e, Folded.final]
  exact reshape_folded _ _ _

/-- The run of the kernel program, read: the result at `column` of the arguments, the arguments unchanged. -/
theorem run : θ_run defs (onTc (τ := τ) (main (F := Ideal))) ⟨m, fun _ => 0, ρ⟩ fun r => ∀ c : Dev nD,
      r.2.mem ((c : Thread nD τ).loc main_v1)
        = column (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.lean ====
/-
  The negated row-wise dot product: the kernel program against its reference, on the extended reals.

  Both programs take two arrays `q`, `d` of 65536 rows and 256 columns and return the column whose entry (n, 0) is
  `-(∑ k, q[n,k] · d[n,k])` (Proof/RowDot.lean).

  * The reference multiplies entry by entry, sums every row from zero, reads the sums as a column and negates:
    `-(0 + ∑ k …)` (Proof/RefRow.lean, over the generated read-at-an-index lemmas of the reference's run).
  * The kernel runs on a grid of 8 points; point `t` loads rows `8192 t …` of both arrays, multiplies, sums over the
    256 lanes, subtracts from zero and stores the 8192 values as 64 rows of 128 lanes: `0 - ∑ k …` at (p, l) for row
    `128 p + l` of the block (Proof/BodyRow.lean).  The 8 stored blocks tile a [512, 128] array, whose entry (g, l) is
    therefore the value of row `128 g + l` (Proof/Folded.lean, over the generated frame run); the program then reshapes
    that array to the column, and a reshape keeps row-major positions (Proof/Tail.lean).

  The two sides meet through `0 + s = s` and `0 - s = -s`, which hold for every extended real, so the precondition
  (finite inputs) is not used for the values.  The three frames are the generated frame runs (the reference's being its
  generated run with the result dropped); no rewrite was applied in idealizing the kernel, so that claim is trivial.
-/
import proofs.«102841_j26946624815702_2_alg».proof.Defs
import proofs.«102841_j26946624815702_2_alg».proof.Proof.Gen.Kernel
import proofs.«102841_j26946624815702_2_alg».proof.Proof.Gen.Kernel.Skeleton
import proofs.«102841_j26946624815702_2_alg».proof.Proof.Gen.Kernel.Launch
import proofs.«102841_j26946624815702_2_alg».proof.Proof.Gen.Kernel.Points
import proofs.«102841_j26946624815702_2_alg».proof.Proof.Gen.Kernel.Frame
import proofs.«102841_j26946624815702_2_alg».proof.Proof.Gen.KernelIdeal
import proofs.«102841_j26946624815702_2_alg».proof.Proof.Gen.KernelIdeal.Skeleton
import proofs.«102841_j26946624815702_2_alg».proof.Proof.Gen.KernelIdeal.Launch
import proofs.«102841_j26946624815702_2_alg».proof.Proof.Gen.KernelIdeal.Points
import proofs.«102841_j26946624815702_2_alg».proof.Proof.Gen.KernelIdeal.Frame
import proofs.«102841_j26946624815702_2_alg».proof.Proof.Gen.ReferenceIdeal
import proofs.«102841_j26946624815702_2_alg».proof.Proof.Gen.Pre_finite_inputs
import proofs.«102841_j26946624815702_2_alg».proof.Proof.Gen.ReferenceIdeal.Run
import proofs.«102841_j26946624815702_2_alg».proof.Proof.Gen.ReferenceIdeal.Read
import proofs.«102841_j26946624815702_2_alg».proof.Proof.RefRow
import proofs.«102841_j26946624815702_2_alg».proof.Proof.Tail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program ends with its result at `column` of its arguments; the reference, run from arguments that
    agree, ends with its result at its last stage of them, which is the same `column`. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefRow.ref_eq_column, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
